-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 20
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S100000x128, .f32⟩
  | .hbm, ⟨17, _⟩ => ⟨S600000x1, .i32⟩
  | .hbm, ⟨18, _⟩ => ⟨S100000x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S100000x128, .f32⟩
  | .hbm, ⟨17, _⟩ => ⟨S600000x1, .i32⟩
  | .hbm, ⟨18, _⟩ => ⟨S100000x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The graph-convolution layer after neighbour aggregation, as one function of its arrays.

  With `agg` the aggregated neighbour features (row `i` is the sum of `feat[s]` over the edges `s → i`), the layer's
  result at row `r`, column `j` is

      (Σ_k agg[r, k] · W_neigh[k, j]  +  b[j])  +  Σ_k feat[r, k] · W_self[k, j]

  on the extended reals, with the additions grouped exactly so: the neighbour projection, then the bias, then the
  self projection. Row `r` of the result depends on row `r` of `agg` and of `feat` only, which is why a kernel may
  compute it a block of rows at a time.
-/
import Idealize.ShloMosaic.PureOps.Ideal
import Idealize.ShloMosaic.Lib.ValueIdx

noncomputable section

open Idealize.ShloMosaic Idealize.ShloMosaic.ValueIdx
open scoped BigOperators

namespace Cert.GraphConv

/-- Column `j` of one result row, from that row of the aggregated features (`aggRow`) and of the node's own
    features (`featRow`): the neighbour projection plus the bias, plus the self projection. -/
def rowEntry (aggRow featRow : Fin 128 → EReal) (wNeigh wSelf : FVec Ideal ⟨2, ![128, 128]⟩ .f32)
    (bias : FVec Ideal ⟨1, ![128]⟩ .f32) (j : Fin 128) : EReal :=
  (∑ k : Fin 128, aggRow k * wNeigh (ix2 k j) + bias (ix1 j)) + ∑ k : Fin 128, featRow k * wSelf (ix2 k j)

/-- The whole [100000, 128] result: entry `(r, j)` is `rowEntry` of row `r` of `agg` and of `feat`. -/
def layer (agg feat : FVec Ideal ⟨2, ![100000, 128]⟩ .f32) (wNeigh wSelf : FVec Ideal ⟨2, ![128, 128]⟩ .f32)
    (bias : FVec Ideal ⟨1, ![128]⟩ .f32) : FVec Ideal ⟨2, ![100000, 128]⟩ .f32 :=
  fun i => rowEntry (fun k => agg (ix2 (i 0 : Fin 100000) k)) (fun k => feat (ix2 (i 0 : Fin 100000) k))
    wNeigh wSelf bias (i 1 : Fin 128)

/-- `layer` at an index written by its coordinates. -/
theorem layer_apply (agg feat : FVec Ideal ⟨2, ![100000, 128]⟩ .f32) (wNeigh wSelf : FVec Ideal ⟨2, ![128, 128]⟩ .f32)
    (bias : FVec Ideal ⟨1, ![128]⟩ .f32) (r : Fin 100000) (j : Fin 128) :
    layer agg feat wNeigh wSelf bias (ix2 r j)
      = rowEntry (fun k => agg (ix2 r k)) (fun k => feat (ix2 r k)) wNeigh wSelf bias j := rfl

end Cert.GraphConv

end
-- ==== Proof.BlockValue.lean ====
/-
  One block of rows through the kernel's body, read entry by entry on the extended reals.

  The body takes a block of 5000 rows of the aggregated features and the same 5000 rows of the node features, the two
  128 × 128 weight matrices and the bias, and computes (agg_blk · W_neigh + b) + feat_blk · W_self. On the extended
  reals the narrowing of the four matrix operands to a shorter float format is the identity, a matrix product into a
  zero accumulator is the plain row-by-column sum, and the bias, reshaped to one row and repeated down the block,
  contributes b[q] at every row. So entry (p, q) of the block's result is `rowEntry` of row p of the two blocks.
-/
import proofs.«105911_j16793322127387_1_alg».proof.Proof.Gen.KernelIdeal.Skeleton
import proofs.«105911_j16793322127387_1_alg».proof.Proof.Layer
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Gen Cert.GraphConv
open Idealize.ShloMosaic Idealize.ShloMosaic.ValueIdx
open scoped BigOperators

/-- The left operand's index at output (p, q) and contraction coordinate: its row is the output's row. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's index: its column is the output's column. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000, 128] × [128, 128] product into the zero accumulator, at (p, q): Σ_k x[p, k] · w[k, q]. -/
theorem product_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The bias as the body spreads it over the block — one row [1, 128], repeated down 5000 rows — is b[q] at (p, q). -/
theorem bias_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ (0 : Fin 1) q)

/-- ENTRY (p, q) OF THE BODY'S RESULT: `rowEntry` of row p of the aggregated block and of the feature block. -/
theorem payload_apply (aggBlk featBlk : FVec Ideal S5000x128 .f32) (wNeigh wSelf : FVec Ideal S128x128 .f32)
    (bias : FVec Ideal S128 .f32) (p : Fin 5000) (q : Fin 128) :
    k0_pay1 (F := Ideal) aggBlk featBlk wNeigh wSelf bias (ix2 p q)
      = rowEntry (fun k => aggBlk (ix2 p k)) (fun k => featBlk (ix2 p k)) wNeigh wSelf bias q := by
  unfold k0_pay1 rowEntry
  dsimp only
  refine (addf_apply _ _ _).trans ?_
  refine congrArg₂ (· + ·) ((addf_apply _ _ _).trans (congrArg₂ (· + ·) ?_ (bias_apply bias p q))) ?_
  · refine (product_apply _ _ p q).trans ?_
    rw [shapeCast_self]
    rfl
  · exact product_apply _ _ p q

end Cert.KernelIdeal.Block

end
-- ==== Proof.RefLayer.lean ====
/-
  The reference program, read entry by entry on the extended reals: its result is `layer` of the aggregated features.

  After the aggregation the reference computes (agg @ W_neigh + b) + feat @ W_self with two host matrix products and
  two additions. Each host product at (r, j) is the sum over k of the left operand at (r, k) times the right at
  (k, j); the bias, spread as one row and then down all 100000 rows, is b[j] at (r, j). That is `rowEntry` of row r of
  the aggregation and of the features, with the same grouping of the two additions.
-/
import proofs.«105911_j16793322127387_1_alg».proof.Proof.Gen.ReferenceIdeal.Read
import proofs.«105911_j16793322127387_1_alg».proof.Proof.Layer

noncomputable section

namespace Cert.ReferenceIdeal.Spec

open Cert.ReferenceIdeal Cert.ReferenceIdeal.Read Cert.GraphConv
open Idealize.ShloMosaic Idealize.ShloMosaic.ValueIdx
open scoped BigOperators

/-- THE REFERENCE'S RESULT is `layer` of its own aggregation stage (kept whole: which rows it sums depends on the edge
    arrays' values, and nothing here needs to know), the features, the two weight matrices and the bias. -/
theorem result_eq_layer (feat : (⟨S100000x128, .f32⟩ : BufTy).Contents (Elt Ideal))
    (src dst : (⟨S600000, .i32⟩ : BufTy).Contents (Elt Ideal))
    (wNeigh : (⟨S128x128, .f32⟩ : BufTy).Contents (Elt Ideal)) (bias : (⟨S128, .f32⟩ : BufTy).Contents (Elt Ideal))
    (wSelf : (⟨S128x128, .f32⟩ : BufTy).Contents (Elt Ideal)) :
    val_main_v15 (F := Ideal) feat src dst wNeigh bias wSelf
      = layer (val_main_v9 (F := Ideal) feat src dst) feat wNeigh wSelf bias := by
  funext i
  obtain ⟨r, j, rfl⟩ : ∃ (r : Fin 100000) (j : Fin 128), i = ix2 r j := ⟨i 0, i 1, eq_ix2 i⟩
  rw [layer_apply, val_main_v15_apply, val_main_v13_apply, val_main_v10_apply, val_main_v12_apply, val_main_v11_apply,
    val_main_v14_apply, Ideal.addf_def, Ideal.addf_def]
  unfold rowEntry
  have eL : ∀ k : Fin 128, lidx_main_v10 (ix2 r j) k = ix2 r k := fun k =>
    funext fun a => Fin.ext (by match a with | ⟨0, _⟩ => rfl | ⟨1, _⟩ => rfl)
  have eR : ∀ k : Fin 128, ridx_main_v10 (ix2 r j) k = ix2 k j := fun k =>
    funext fun a => Fin.ext (by match a with | ⟨0, _⟩ => rfl | ⟨1, _⟩ => rfl)
  have eL' : ∀ k : Fin 128, lidx_main_v14 (ix2 r j) k = ix2 r k := fun k =>
    funext fun a => Fin.ext (by match a with | ⟨0, _⟩ => rfl | ⟨1, _⟩ => rfl)
  have eR' : ∀ k : Fin 128, ridx_main_v14 (ix2 r j) k = ix2 k j := fun k =>
    funext fun a => Fin.ext (by match a with | ⟨0, _⟩ => rfl | ⟨1, _⟩ => rfl)
  have eB : idx_main_v11 (idx_main_v12 (ix2 r j)) = ix1 j :=
    funext fun a => Fin.ext (by match a with | ⟨0, _⟩ => rfl)
  refine congrArg₂ (· + ·) (congrArg₂ (· + ·) (Finset.sum_congr rfl fun k _ => ?_) (congrArg bias eB))
    (Finset.sum_congr rfl fun k _ => ?_)
  · exact congrArg₂ (· * ·) (congrArg _ (eL k)) (congrArg wNeigh (eR k))
  · exact congrArg₂ (· * ·) (congrArg feat (eL' k)) (congrArg wSelf (eR' k))

end Cert.ReferenceIdeal.Spec

end
-- ==== Proof.AggWindow.lean ====
/-
  The aggregated features as the kernel's program computes them, before its one launch.

  Ahead of the launch the program sums neighbour features on the host: it wraps negative source indices by the node
  count, gathers the source rows of the feature matrix, and scatter-adds them into a zero matrix at the destination
  rows. That array is what the launch stages through its first window. Here the thirteen host operations are read off
  as ONE term of the three arguments they touch — the features and the two edge arrays — and the term is given a name;
  nothing in this certificate needs to know which rows it sums.
-/
import proofs.«105911_j16793322127387_1_alg».proof.Proof.Gen.KernelIdeal.Frame
import Idealize.ShloMosaic.Lib.StableHlo.Run

noncomputable section

namespace Cert.KernelIdeal.Agg

open Cert.KernelIdeal Cert.KernelIdeal.Gen
open Idealize.ShloMosaic Idealize.ShloMosaic.TcCoe Idealize.SL.Sem Idealize.ShloMosaic.StableHlo

variable {F : FTy → Type} [FloatOps F]

/-- The neighbour aggregation: scatter-add, at the destination rows, of the feature rows gathered at the (wrapped)
    source indices, into zeros. -/
def aggregate (feat : (⟨S100000x128, .f32⟩ : BufTy).Contents (Elt F)) (src dst : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant (F := F) S_ .f32 0x00000000#32))
    (broadcastInDim S600000x1 ![0] bcast_S600000_S600000x1_0 dst)
    (Host.gather gather_S100000x128_S600000x1_S600000x128_1_0_n_n_0_1_1128 feat
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

variable (m : (ℓ : Loc nD τ sig) → Buf (Elt F) ℓ)

/-- WHAT THE LAUNCH FINDS in the array its first window stages: the aggregation of the three arguments. -/
theorem staged_eq (c : Dev nD) :
    (V m c main_v9 : (⟨S100000x128, .f32⟩ : BufTy).Contents (Elt F))
      = aggregate (m ((c : Thread nD τ).loc main_arg0)) (m ((c : Thread nD τ).loc main_arg1)) (m ((c : Thread nD τ).loc main_arg2)) := by
  dsimp only [V, hostOps0]
  after_results
  rfl

end Cert.KernelIdeal.Agg

end
-- ==== Proof.ArrayValue.lean ====
/-
  From blocks of rows to the whole result array.

  The launch walks twenty grid points; point t stages rows 5000 t … 5000 t + 4999 of the aggregated features and of the
  node features, the whole of both weight matrices and of the bias, and writes back rows 5000 t … 5000 t + 4999 of the
  result. Since one result row depends on that row of its inputs only, what point t writes back is exactly block t of
  `layer` applied to the whole arrays; the twenty blocks tile the 100000 rows, so after the run the result array is
  `layer` of the arrays the launch found.
-/
import proofs.«105911_j16793322127387_1_alg».proof.Proof.Gen.KernelIdeal.Value
import proofs.«105911_j16793322127387_1_alg».proof.Proof.BlockValue
import Idealize.ShloMosaic.Lib.Pipeline.Value

noncomputable section

namespace Cert.KernelIdeal.Whole

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at grid point t, decided over the twenty points: the three row-blocked windows
    (aggregated features, node features, result) at block row t, the two weight matrices and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array: `layer` of the arrays as the launch finds them. -/
def result (c : Dev nD) : FVec Ideal S100000x128 .f32 :=
  layer (V m c main_v9) (V m c main_arg0) (V m c main_arg3) (V m c main_arg5) (V m c main_arg4)

/-- Row p of the aggregated block at point t is row 5000 t + p of the aggregated array. -/
theorem aggBlk_apply (c : Dev nD) (t : Fin cfg0.N) (p : Fin 5000) (k : Fin 128) (r : Fin 100000)
    (hr : r.val = 5000 * t.val + p.val) :
    (iblk m c 0 t : Vec Ideal S5000x128 .f32) (ix2 p k) = (V m c main_v9 : FVec Ideal S100000x128 .f32) (ix2 r k) := by
  obtain ⟨e0, e1, -⟩ := index_facts t
  unfold iblk
  rw [View.read_apply]
  show V m c main_v9 _ = V m c main_v9 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the feature block at point t is row 5000 t + p of the feature array. -/
theorem featBlk_apply (c : Dev nD) (t : Fin cfg0.N) (p : Fin 5000) (k : Fin 128) (r : Fin 100000)
    (hr : r.val = 5000 * t.val + p.val) :
    (iblk m c 1 t : Vec Ideal S5000x128 .f32) (ix2 p k) = (V m c main_arg0 : FVec Ideal S100000x128 .f32) (ix2 r k) := by
  obtain ⟨-, -, e0, e1, -⟩ := index_facts t
  unfold iblk
  rw [View.read_apply]
  show V m c main_arg0 _ = V m c main_arg0 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The neighbour weights' block at every point is the whole matrix. -/
theorem wNeighBlk_eq (c : Dev nD) (t : Fin cfg0.N) :
    (iblk m c 2 t : Vec Ideal S128x128 .f32) = (V m c main_arg3 : FVec Ideal S128x128 .f32) := by
  obtain ⟨-, -, -, -, e0, e1, -⟩ := index_facts t
  funext z
  unfold iblk
  rw [View.read_apply]
  show V m c main_arg3 _ = V m c main_arg3 z
  congr 1
  funext a
  apply Fin.ext
  match a with
  | ⟨0, _⟩ => show win0_2.index t (0 : Fin 2) * 128 + 1 * (z 0).val = (z 0).val; rw [e0]; omega
  | ⟨1, _⟩ => show win0_2.index t (1 : Fin 2) * 128 + 1 * (z 1).val = (z 1).val; rw [e1]; omega

/-- The self weights' block at every point is the whole matrix. -/
theorem wSelfBlk_eq (c : Dev nD) (t : Fin cfg0.N) :
    (iblk m c 4 t : Vec Ideal S128x128 .f32) = (V m c main_arg5 : FVec Ideal S128x128 .f32) := by
  obtain ⟨-, -, -, -, -, -, -, e0, e1, -⟩ := index_facts t
  funext z
  unfold iblk
  rw [View.read_apply]
  show V m c main_arg5 _ = V m c main_arg5 z
  congr 1
  funext a
  apply Fin.ext
  match a with
  | ⟨0, _⟩ => show win0_4.index t (0 : Fin 2) * 128 + 1 * (z 0).val = (z 0).val; rw [e0]; omega
  | ⟨1, _⟩ => show win0_4.index t (1 : Fin 2) * 128 + 1 * (z 1).val = (z 1).val; rw [e1]; omega

/-- The bias's block at every point is the whole vector. -/
theorem biasBlk_eq (c : Dev nD) (t : Fin cfg0.N) :
    (iblk m c 3 t : Vec Ideal S128 .f32) = (V m c main_arg4 : FVec Ideal S128 .f32) := by
  obtain ⟨-, -, -, -, -, -, e0, -⟩ := index_facts t
  funext z
  unfold iblk
  rw [View.read_apply]
  show V m c main_arg4 _ = V m c main_arg4 z
  congr 1
  funext a
  apply Fin.ext
  match a with
  | ⟨0, _⟩ => show win0_3.index t (0 : Fin 1) * 128 + 1 * (z 0).val = (z 0).val; rw [e0]; omega

/-- `rowEntry` of equal rows, weights and bias. -/
theorem rowEntry_congr {a a' f f' : Fin 128 → EReal} {wn wn' ws ws' : FVec Ideal ⟨2, ![128, 128]⟩ .f32}
    {b b' : FVec Ideal ⟨1, ![128]⟩ .f32} (ha : a = a') (hf : f = f') (hwn : wn = wn') (hws : ws = ws') (hb : b = b')
    (j : Fin 128) : rowEntry a f wn ws b j = rowEntry a' f' wn' ws' b' j := by
  rw [ha, hf, hwn, hws, hb]

/-- ONE ENTRY: what the body computes at local index y of point t's block is `result` at the array index i in row
    5000 t + y₀, column y₁. -/
theorem entry_eq (c : Dev nD) (t : Fin cfg0.N) (y : S5000x128.Idx) (i : S100000x128.Idx)
    (h0 : (i 0).val = 5000 * t.val + (y 0).val) (h1 : (i 1).val = (y 1).val) :
    k0_pay1 (F := Ideal) (iblk m c 0 t) (iblk m c 1 t) (iblk m c 2 t) (iblk m c 4 t) (iblk m c 3 t) y = result m c i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  obtain rfl : j = q := Fin.ext h1
  refine (Block.payload_apply (iblk m c 0 t) (iblk m c 1 t) (iblk m c 2 t) (iblk m c 4 t) (iblk m c 3 t) p j).trans ?_
  unfold result
  rw [layer_apply]
  exact rowEntry_congr (funext fun k => aggBlk_apply m c t p k r h0) (funext fun k => featBlk_apply m c t p k r h0)
    (wNeighBlk_eq m c t) (wSelfBlk_eq m c t) (biasBlk_eq m c t) j

/-- WHAT POINT t WRITES BACK is block t of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero2]
  simp only [View.ld_unit_zero (S := S5000x128) zero2, View.ld_unit_zero (S := S128x128) zero2, View.ld_unit_zero (S := S128) zero1]
  obtain ⟨-, -, -, -, -, -, -, -, -, e0, e1⟩ := index_facts t
  funext y
  rw [View.read_apply]
  refine entry_eq m c t y _ ?_ ?_
  · show win0_5.index t (0 : Fin 2) * 5000 + 1 * (y 0).val = 5000 * t.val + (y 0).val; rw [e0]; omega
  · show win0_5.index t (1 : Fin 2) * 128 + 1 * (y 1).val = (y 1).val; rw [e1]; omega

/-- An array index is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v10).slice (win0_5.rect t)).set ↔ _
  rw [View.set_slice_whole, Rect.mem_set_unit]
  exact Iff.rfl

/-- Every index of the result array is in some point's block: row r is in the block of point r / 5000. -/
theorem cover (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have ht : (i 0).val / 5000 < cfg0.N := by rw [hN]; omega
  refine ⟨⟨(i 0).val / 5000, ht⟩, flush0_5 _, ?_⟩
  rw [mem_blk]
  obtain ⟨-, -, -, -, -, -, -, -, -, e0, e1⟩ := index_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- THE RESULT ARRAY after the run is `result`. -/
theorem final (c : Dev nD) : (dats m 0 c).arrAt 5 cfg0.N = result m c :=
  (dats m 0 c).arrAt_eq_of_cover 5 (result m c) (fun t _ => flushed_eq m c t) cover

/-- The run, read: the result array at `result`, the six arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  A graph-convolution layer computed by a row-blocked kernel, against its plain reference, on the extended reals.

  Both programs first aggregate neighbour features on the host with the same operations (wrap the source indices,
  gather the source rows of the features, scatter-add them at the destination rows into zeros); call the result agg.
  The reference then computes (agg @ W_neigh + b) + feat @ W_self with two host matrix products. The kernel computes
  the same thing 5000 rows at a time over twenty grid points, each point narrowing its four matrix operands to a
  shorter float format, multiplying into zero accumulators, adding the bias spread over the block, and adding the two
  products.

  On the extended reals the narrowing is the identity and each product is the plain row-by-column sum, so one block's
  entry (p, q) is (Σ_k agg[r, k] · W_neigh[k, q] + b[q]) + Σ_k feat[r, k] · W_self[k, q] at the block's row r — the
  reference's entry, with the additions grouped the same way. No algebraic law relates the two sides beyond that: the
  sums are over the same index in the same form, so finiteness of the inputs is never used. A result row depends on
  that row of agg and feat only, the twenty blocks tile the 100000 rows, and so the kernel's result array is the
  reference's (`Whole.result`, `Spec.result_eq_layer`). The aggregation itself is never opened: both sides carry it as
  one term of the features and the two edge arrays (`aggregate_eq`).

  The idealized kernel is the kernel's own text read on the extended reals (no rewrite was applied), so that claim is
  trivial; the three frame claims are the generated frame runs.
-/
import proofs.«105911_j16793322127387_1_alg».proof.Defs
import proofs.«105911_j16793322127387_1_alg».proof.Proof.Gen.Kernel
import proofs.«105911_j16793322127387_1_alg».proof.Proof.Gen.Kernel.Skeleton
import proofs.«105911_j16793322127387_1_alg».proof.Proof.Gen.Kernel.Launch
import proofs.«105911_j16793322127387_1_alg».proof.Proof.Gen.Kernel.Points
import proofs.«105911_j16793322127387_1_alg».proof.Proof.Gen.Kernel.Frame
import proofs.«105911_j16793322127387_1_alg».proof.Proof.Gen.KernelIdeal
import proofs.«105911_j16793322127387_1_alg».proof.Proof.Gen.KernelIdeal.Skeleton
import proofs.«105911_j16793322127387_1_alg».proof.Proof.Gen.KernelIdeal.Launch
import proofs.«105911_j16793322127387_1_alg».proof.Proof.Gen.KernelIdeal.Points
import proofs.«105911_j16793322127387_1_alg».proof.Proof.Gen.KernelIdeal.Frame
import proofs.«105911_j16793322127387_1_alg».proof.Proof.Gen.ReferenceIdeal
import proofs.«105911_j16793322127387_1_alg».proof.Proof.Gen.KernelIdeal.Value
import proofs.«105911_j16793322127387_1_alg».proof.Proof.Gen.ReferenceIdeal.Run
import proofs.«105911_j16793322127387_1_alg».proof.Proof.Gen.ReferenceIdeal.Read
import proofs.«105911_j16793322127387_1_alg».proof.Proof.Gen.Pre_finite_inputs
import proofs.«105911_j16793322127387_1_alg».proof.Proof.Layer
import proofs.«105911_j16793322127387_1_alg».proof.Proof.BlockValue
import proofs.«105911_j16793322127387_1_alg».proof.Proof.RefLayer
import proofs.«105911_j16793322127387_1_alg».proof.Proof.AggWindow
import proofs.«105911_j16793322127387_1_alg».proof.Proof.ArrayValue
import Idealize.ShloMosaic.Adequacy
import Idealize.ShloMosaic.Init

noncomputable section

namespace Cert.Proof

open Idealize.ShloMosaic Idealize.ShloMosaic.TcCoe Idealize.SL.Sem

/-- Both programs aggregate with the same host operations on the same three arrays: the kernel program's aggregation
    term is the reference's aggregation stage. -/
theorem aggregate_eq (feat : (⟨Cert.KernelIdeal.S100000x128, .f32⟩ : BufTy).Contents (Elt Ideal))
    (src dst : (⟨Cert.KernelIdeal.S600000, .i32⟩ : BufTy).Contents (Elt Ideal)) :
    Cert.KernelIdeal.Agg.aggregate (F := Ideal) feat src dst = Cert.ReferenceIdeal.Read.val_main_v9 (F := Ideal) feat src dst :=
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `layer` of the arrays its launch finds; the reference's at `layer` of its own
    aggregation stage and arguments. From arguments that agree these are one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v15_eq, Cert.ReferenceIdeal.Spec.result_eq_layer, h0, h1, h2, h3, h4, h5]
  show _ = Cert.KernelIdeal.Whole.result m c
  unfold Cert.KernelIdeal.Whole.result
  rw [Cert.KernelIdeal.Agg.staged_eq, Cert.KernelIdeal.Gen.V_main_arg0, Cert.KernelIdeal.Gen.V_main_arg3,
    Cert.KernelIdeal.Gen.V_main_arg4, Cert.KernelIdeal.Gen.V_main_arg5, aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
